-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048 : Shape := ⟨2, ![4, 2048]⟩
abbrev S32000x16 : Shape := ⟨2, ![32000, 16]⟩
abbrev S16x4096 : Shape := ⟨2, ![16, 4096]⟩
abbrev S_ : Shape := ⟨0, ![]⟩

class Facts : Prop where
  bcast_S_S32000x16 : S_.BroadcastsInDim S32000x16 (![] : Fin 0 → Fin S32000x16.rank)
  reducesTo_S32000x16_S_d0_1 : S32000x16.ReducesTo [0, 1] S_
  h_S_ : 0 < S_.numel
  bcast_S_S16x4096 : S_.BroadcastsInDim S16x4096 (![] : Fin 0 → Fin S16x4096.rank)
  reducesTo_S16x4096_S_d0_1 : S16x4096.ReducesTo [0, 1] S_

variable [Facts]

def fn {F : FTy → Type} [FloatOps F] (main_arg0 : IVec S4x2048 32) (main_arg1 : FVec F S32000x16 .f32) (main_arg2 : FVec F S16x4096 .f32) : IVec S_ 1 :=
  let main_v0 : FVec F S32000x16 .f32 := Host.absf main_arg1
  let main_cst : FVec F S_ .f32 := constant S_ .f32 0x7F800000#32
  let main_v1 : FVec F S32000x16 .f32 := broadcastInDim S32000x16 ![] bcast_S_S32000x16 main_cst
  let main_v2 : IVec S32000x16 1 := cmpf .olt main_v0 main_v1
  let main_c : IVec S_ 1 := constantI S_ 1 1#1
  let main_v3 : IVec S_ 1 := (fun x v => Host.reduce IntOp.andi x v reducesTo_S32000x16_S_d0_1 h_S_) main_v2 main_c
  let main_v4 : FVec F S16x4096 .f32 := Host.absf main_arg2
  let main_cst_0 : FVec F S_ .f32 := constant S_ .f32 0x7F800000#32
  let main_v5 : FVec F S16x4096 .f32 := broadcastInDim S16x4096 ![] bcast_S_S16x4096 main_cst_0
  let main_v6 : IVec S16x4096 1 := cmpf .olt main_v4 main_v5
  let main_c_1 : IVec S_ 1 := constantI S_ 1 1#1
  let main_v7 : IVec S_ 1 := (fun x v => Host.reduce IntOp.andi x v reducesTo_S16x4096_S_d0_1 h_S_) main_v6 main_c_1
  let main_v8 : IVec S_ 1 := andi main_v3 main_v7
  main_v8
-- ==== Kernel.lean ====
abbrev S4x2048 : Shape := ⟨2, ![4, 2048]⟩
abbrev S32000x16 : Shape := ⟨2, ![32000, 16]⟩
abbrev S16x4096 : Shape := ⟨2, ![16, 4096]⟩
abbrev S_ : Shape := ⟨0, ![]⟩
abbrev S4x2048x1 : Shape := ⟨3, ![4, 2048, 1]⟩
abbrev S4x2048x16 : Shape := ⟨3, ![4, 2048, 16]⟩
abbrev S8192x16 : Shape := ⟨2, ![8192, 16]⟩
abbrev S8192x4096 : Shape := ⟨2, ![8192, 4096]⟩
abbrev S1024x16 : Shape := ⟨2, ![1024, 16]⟩
abbrev S1024x4096 : Shape := ⟨2, ![1024, 4096]⟩
abbrev S4x2048x4096 : Shape := ⟨3, ![4, 2048, 4096]⟩

abbrev nBuf : Space → Nat
  | .hbm => 15
  | .vmem => 5
  | .smem => 0
  | _ => 0

abbrev bufTy : (tb : Table) → Fin (tcTables nBuf tb) → BufTy
  | .hbm, ⟨0, _⟩ => ⟨S4x2048, .i32⟩
  | .hbm, ⟨1, _⟩ => ⟨S32000x16, .f32⟩
  | .hbm, ⟨2, _⟩ => ⟨S16x4096, .f32⟩
  | .hbm, ⟨3, _⟩ => ⟨S_, .i32⟩
  | .hbm, ⟨4, _⟩ => ⟨S4x2048, .i32⟩
  | .hbm, ⟨5, _⟩ => ⟨S4x2048, .i1⟩
  | .hbm, ⟨6, _⟩ => ⟨S_, .i32⟩
  | .hbm, ⟨7, _⟩ => ⟨S4x2048, .i32⟩
  | .hbm, ⟨8, _⟩ => ⟨S4x2048, .i32⟩
  | .hbm, ⟨9, _⟩ => ⟨S4x2048, .i32⟩
  | .hbm, ⟨10, _⟩ => ⟨S4x2048x1, .i32⟩
  | .hbm, ⟨11, _⟩ => ⟨S4x2048x16, .f32⟩
  | .hbm, ⟨12, _⟩ => ⟨S8192x16, .f32⟩
  | .hbm, ⟨13, _⟩ => ⟨S8192x4096, .f32⟩
  | .hbm, ⟨14, _⟩ => ⟨S4x2048x4096, .f32⟩
  | .local _ .vmem, ⟨0, _⟩ => ⟨S1024x16, .f32⟩
  | .local _ .vmem, ⟨1, _⟩ => ⟨S1024x16, .f32⟩
  | .local _ .vmem, ⟨2, _⟩ => ⟨S16x4096, .f32⟩
  | .local _ .vmem, ⟨3, _⟩ => ⟨S1024x4096, .f32⟩
  | .local _ .vmem, ⟨4, _⟩ => ⟨S1024x4096, .f32⟩
  | _, _ => ⟨S4x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  shapeCasts_S4x2048x16_S8192x16 : S4x2048x16.ShapeCasts S8192x16
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  bitsLt_bf16_f32 : FTy.bits .bf16 < FTy.bits .f32
  inb_S16x4096_S16x4096_0_0 : ∀ a, (![0, 0] : Fin 2 → Nat) a + S16x4096.size a ≤ S16x4096.size a
  h_S16x4096 : 0 < S16x4096.numel
  inb_S1024x4096_S1024x4096_0_0 : ∀ a, (![0, 0] : Fin 2 → Nat) a + S1024x4096.size a ≤ S1024x4096.size a
  h_S1024x4096 : 0 < S1024x4096.numel
  shapeCasts_S8192x4096_S4x2048x4096 : S8192x4096.ShapeCasts S4x2048x4096
  gather_S32000x16_S4x2048x1_S4x2048x16_2_0_n_n_0_2_116_wf : GatherDims.WF S32000x16 S4x2048x1 S4x2048x16 [2] [0] [] [0] [] 2 ![1, 16]
  dot_S1024x16_S16x4096_S1024x4096_1_0_0_1_n_n_wf : DotDims.WF S1024x16 S16x4096 S1024x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x16.size a ≤ S8192x16.size a
  hwx0_0 : ∀ i : grid0.Coords, EltTy.bits .f32 = 32 ∨ (Rect.block (s := S8192x16) S1024x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x4096.size a ≤ S16x4096.size a
  hwx0_1 : ∀ i : grid0.Coords, EltTy.bits .f32 = 32 ∨ (Rect.block (s := S16x4096) S16x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x4096.size a ≤ S8192x4096.size a
  hwx0_2 : ∀ i : grid0.Coords, EltTy.bits .f32 = 32 ∨ (Rect.block (s := S8192x4096) S1024x4096.size (cc0_transform_2 i) (hinb0_2 i)).WholeWords (EltTy.packing .f32)

variable [Facts₀]

def gather_S32000x16_S4x2048x1_S4x2048x16_2_0_n_n_0_2_116 : GatherDims S32000x16 S4x2048x1 S4x2048x16 where
  offsetDims := [2]
  collapsedSliceDims := [0]
  operandBatchingDims := []
  startIndicesBatchingDims := []
  startIndexMap := [0]
  indexVectorDim := 2
  sliceSizes := ![1, 16]
  wf := gather_S32000x16_S4x2048x1_S4x2048x16_2_0_n_n_0_2_116_wf
def dot_S1024x16_S16x4096_S1024x4096_1_0_0_1_n_n : DotDims S1024x16 S16x4096 S1024x4096 where
  lhsContracting := [1]
  rhsContracting := [0]
  lhsNonContracting := [0]
  rhsNonContracting := [1]
  lhsBatch := []
  rhsBatch := []
  wf := dot_S1024x16_S16x4096_S1024x4096_1_0_0_1_n_n_wf

abbrev win0_0 : Pipeline.Window sig grid0 :=
  Pipeline.Window.ofSpec (Memref.whole main_v7) S1024x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1024x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048 : Shape := ⟨2, ![4, 2048]⟩
abbrev S32000x16 : Shape := ⟨2, ![32000, 16]⟩
abbrev S16x4096 : Shape := ⟨2, ![16, 4096]⟩
abbrev S_ : Shape := ⟨0, ![]⟩
abbrev S4x2048x1 : Shape := ⟨3, ![4, 2048, 1]⟩
abbrev S4x2048x16 : Shape := ⟨3, ![4, 2048, 16]⟩
abbrev S4x2048x4096 : Shape := ⟨3, ![4, 2048, 4096]⟩

abbrev nBuf : Space → Nat
  | .hbm => 13
  | .vmem => 0
  | .smem => 0
  | _ => 0

abbrev bufTy : (tb : Table) → Fin (tcTables nBuf tb) → BufTy
  | .hbm, ⟨0, _⟩ => ⟨S4x2048, .i32⟩
  | .hbm, ⟨1, _⟩ => ⟨S32000x16, .f32⟩
  | .hbm, ⟨2, _⟩ => ⟨S16x4096, .f32⟩
  | .hbm, ⟨3, _⟩ => ⟨S_, .i32⟩
  | .hbm, ⟨4, _⟩ => ⟨S4x2048, .i32⟩
  | .hbm, ⟨5, _⟩ => ⟨S4x2048, .i1⟩
  | .hbm, ⟨6, _⟩ => ⟨S_, .i32⟩
  | .hbm, ⟨7, _⟩ => ⟨S4x2048, .i32⟩
  | .hbm, ⟨8, _⟩ => ⟨S4x2048, .i32⟩
  | .hbm, ⟨9, _⟩ => ⟨S4x2048, .i32⟩
  | .hbm, ⟨10, _⟩ => ⟨S4x2048x1, .i32⟩
  | .hbm, ⟨11, _⟩ => ⟨S4x2048x16, .f32⟩
  | .hbm, ⟨12, _⟩ => ⟨S4x2048x4096, .f32⟩
  | _, _ => ⟨S4x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  gather_S32000x16_S4x2048x1_S4x2048x16_2_0_n_n_0_2_116_wf : GatherDims.WF S32000x16 S4x2048x1 S4x2048x16 [2] [0] [] [0] [] 2 ![1, 16]
  dot_S4x2048x16_S16x4096_S4x2048x4096_2_0_01_1_n_n_wf : DotDims.WF S4x2048x16 S16x4096 S4x2048x4096 [2] [0] [0, 1] [1] [] []

variable [Facts₀]

def gather_S32000x16_S4x2048x1_S4x2048x16_2_0_n_n_0_2_116 : GatherDims S32000x16 S4x2048x1 S4x2048x16 where
  offsetDims := [2]
  collapsedSliceDims := [0]
  operandBatchingDims := []
  startIndicesBatchingDims := []
  startIndexMap := [0]
  indexVectorDim := 2
  sliceSizes := ![1, 16]
  wf := gather_S32000x16_S4x2048x1_S4x2048x16_2_0_n_n_0_2_116_wf
def dot_S4x2048x16_S16x4096_S4x2048x4096_2_0_01_1_n_n : DotDims S4x2048x16 S16x4096 S4x2048x4096 where
  lhsContracting := [2]
  rhsContracting := [0]
  lhsNonContracting := [0, 1]
  rhsNonContracting := [1]
  lhsBatch := []
  rhsBatch := []
  wf := dot_S4x2048x16_S16x4096_S4x2048x4096_2_0_01_1_n_n_wf

class Facts : Prop extends Facts₀ where

variable [Facts]
-- ==== Proof.LibPlainDot.lean ====
/-
  A plain matrix product read index by index over the extended reals.

  For the dimension numbers of an `M×K` by `K×N` product (contract the left operand's second axis with the right
  operand's first; no batch axis) both the accelerator's matrix product into a zero accumulator and the host's
  `dot_general` are, at the exact (extended-real) values, the function
      (i, j) ↦ ∑ k < K, l (i, k) · r (k, j).
  Row `i` of the product depends on row `i` of the left operand only, so a block of rows of the product is the
  product of the same block of rows of the left operand: this is what lets a product computed tile by tile over the
  row axis be compared with one whole product.
-/
import Idealize.ShloMosaic.PureOps.Ideal.Laws
import Idealize.ShloMosaic.Lib.ValueIdx

noncomputable section

namespace Cert.Lib.PlainDot

open Idealize.ShloMosaic Idealize.ShloMosaic.ValueIdx

/-- The matrix product of an `M×K` and a `K×N` array of extended reals, index by index. -/
def mm {M K N : Nat} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem mm_apply {M K N : Nat} (l : (⟨2, ![M, K]⟩ : Shape).Idx → EReal) (r : (⟨2, ![K, N]⟩ : Shape).Idx → EReal)
    (i : Fin M) (j : Fin N) : mm l r (ix2 i j) = ∑ k : Fin K, l (ix2 i k) * r (ix2 k j) := rfl

/-- The sum over the one-axis contraction index of the plain dimension numbers is the sum over `k < K` of the
    left operand at `(i, k)` times the right operand at `(k, j)`. -/
theorem contr_sum (M K N : Nat) (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = mm l r j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact ((DotDims.plain M K N).lhsIdx_val_of_single (cl := 1) rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single (cr := 0) rfl j _).trans hk
      | ⟨1, _⟩ => rfl)
  rw [el, er]
  rfl

/-- The accelerator's matrix product into the zero accumulator, at the exact values, is `mm`. -/
theorem matmul_zero {M K N : Nat} {φ₁ φ₂ : FTy} (prec : Option ContractPrecision)
    (l : FVec Ideal ⟨2, ![M, K]⟩ φ₁) (r : FVec Ideal ⟨2, ![K, N]⟩ φ₂) :
    matmul (F := Ideal) (DotDims.plain M K N) prec l r (constant (F := Ideal) ⟨2, ![M, N]⟩ .f32 0x00000000#32) = mm l r :=
  funext fun j => (Ideal.matmul_constant_zero_apply (DotDims.plain M K N) prec l r j).trans (contr_sum M K N l r j)

/-- The host's `dot_general`, at the exact values, is `mm`. -/
theorem dotGeneral {M K N : Nat} {φ₁ φ₂ : FTy} (prec : Option ContractPrecision)
    (l : FVec Ideal ⟨2, ![M, K]⟩ φ₁) (r : FVec Ideal ⟨2, ![K, N]⟩ φ₂) :
    Host.dotGeneral (F := Ideal) (DotDims.plain M K N) prec l r = mm l r :=
  funext fun j => (Ideal.dotGeneral_apply (DotDims.plain M K N) prec .single l r j).trans (contr_sum M K N l r j)

/-- Row locality: a row of the product reads the same row of the left operand. If `l'` at `(p, k)` is `l` at `(i, k)`
    for every `k`, the products agree at `(p, j)` and `(i, j)`. -/
theorem mm_row {M M' K N : Nat} (l : (⟨2, ![M, K]⟩ : Shape).Idx → EReal) (l' : (⟨2, ![M', K]⟩ : Shape).Idx → EReal)
    (r : (⟨2, ![K, N]⟩ : Shape).Idx → EReal) (i : Fin M) (p : Fin M') (j : Fin N)
    (h : ∀ k : Fin K, l' (ix2 p k) = l (ix2 i k)) : mm l' r (ix2 p j) = mm l r (ix2 i j) := by
  rw [mm_apply, mm_apply]
  exact Finset.sum_congr rfl fun k _ => by rw [h k]

end Cert.Lib.PlainDot

end
-- ==== Proof.Payload.lean ====
/-
  What the body computes from its two loaded blocks: the plain product of a `1024×16` block of rows with the whole
  `16×4096` up-projection. The casts to the narrower float format are the identity on exact values, the shape cast is
  between equal shapes, and the accumulator the product adds into is zero.
-/
import proofs.«106962_j78520592105994_1_alg».proof.Proof.Gen.KernelIdeal.Skeleton
import proofs.«106962_j78520592105994_1_alg».proof.Proof.LibPlainDot
import Idealize.ShloMosaic.Lib.Pipeline.Value

noncomputable section

namespace Cert.KernelIdeal.Bridge

open Cert.KernelIdeal Cert.KernelIdeal.Gen Idealize.ShloMosaic Cert.Lib.PlainDot

/-- The stored value is the plain product of the two loaded blocks. -/
theorem payload (x0 : Vec Ideal S1024x16 .f32) (x1 : Vec Ideal S16x4096 .f32) :
    k0_pay1 (F := Ideal) x0 x1 = mm (M := 1024) (K := 16) (N := 4096) x0 x1 := by
  unfold k0_pay1
  rw [shapeCast_self]
  exact matmul_zero (M := 1024) (K := 16) (N := 4096) none _ _

end Cert.KernelIdeal.Bridge

end
-- ==== Proof.Blocks.lean ====
/-
  From the blocks the grid points write to the whole product.

  The grid has eight points. Point `t` loads rows `1024·t … 1024·t + 1023` of the flattened rows and the whole
  up-projection, and writes rows `1024·t … 1024·t + 1023` of the output. A row of a plain product reads only the same
  row of the left operand, so what point `t` writes is exactly block `t` of the product of the whole arrays; the eight
  blocks tile the 8192 rows (row `r` lies in block `r / 1024`), so after the run the output array is that product.
-/
import proofs.«106962_j78520592105994_1_alg».proof.Proof.Gen.KernelIdeal.Frame
import proofs.«106962_j78520592105994_1_alg».proof.Proof.Payload
import Idealize.ShloMosaic.Lib.Pipeline.Value

set_option maxRecDepth 16384

noncomputable section

namespace Cert.KernelIdeal.Bridge

open Cert.KernelIdeal Cert.KernelIdeal.Gen Idealize.ShloMosaic Idealize.ShloMosaic.TcCoe Idealize.ShloMosaic.ValueIdx
open Idealize.SL.Sem Cert.Lib.PlainDot
open Idealize.ShloMosaic.Pipeline (Dat Cfg Window)

variable (m : (ℓ : Loc nD τ sig) → Buf (Elt Ideal) ℓ) (ρ : Dev nD → PrngReg)

/-- The product of the whole arrays as the region finds them. -/
def whole (c : Dev nD) : S8192x4096.Idx → EReal :=
  mm (M := 8192) (K := 16) (N := 4096) (V m c main_v7) (V m c main_arg2)

theorem hz : (![0, 0] : Fin 2 → Nat) = fun _ => 0 := funext fun a => by fin_cases a <;> rfl

/-- The block indices at point `t`: the row windows sit at block `t`, the up-projection's window at block 0. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A product whose left operand is a block of rows of `l` and whose right operand is `r` read whole is the product
    of `l` and `r` at the block's rows. -/
theorem mm_at {M M' K N : Nat} (l : (⟨2, ![M, K]⟩ : Shape).Idx → EReal) (l' : (⟨2, ![M', K]⟩ : Shape).Idx → EReal)
    (r r' : (⟨2, ![K, N]⟩ : Shape).Idx → EReal) (j : (⟨2, ![M', N]⟩ : Shape).Idx) (i : (⟨2, ![M, N]⟩ : Shape).Idx)
    (hl : ∀ k : Fin K, l' (ix2 (j 0) k) = l (ix2 (i 0) k)) (hr : ∀ k : Fin K, r' (ix2 k (j 1)) = r (ix2 k (i 1))) :
    mm l' r' j = mm l r i := by
  unfold mm
  exact Finset.sum_congr rfl fun k _ => by rw [hl k, hr k]

/-- What point `t` writes back is block `t` of the whole product. -/
theorem flushed_eq (c : Dev nD) (t : Fin cfg0.N) :
    (dats m 0 c).flushed 2 t = ((cfg0.win 2).blk t).view.read (Elt Ideal) (whole m c) := by
  show (cfg0.win 2).cut (grid0.coords t) ((dats m 0 c).after 2 t) = _
  rw [after0_2]
  unfold out0_2
  rw [View.canon_unit_zero hz]
  simp only [View.ld_unit_zero (S := S1024x16) hz, View.ld_unit_zero (S := S16x4096) hz]
  rw [payload]
  obtain ⟨e0, e1, e2, e3, e4, e5⟩ := block_index t
  funext j
  show mm (M := 1024) (K := 16) (N := 4096) (iblk m c 0 t) (iblk m c 1 t) j = whole m c (((cfg0.win 2).blk t).view.emb j)
  unfold whole
  refine mm_at _ _ _ _ j _ (fun k => ?_) (fun k => ?_)
  · show V m c main_v7 (((cfg0.win 0).blk t).view.emb (ix2 (j 0) k)) = _
    refine congrArg (V m c main_v7) (funext fun a => Fin.ext ?_)
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 16 + 1 * k.val = k.val; omega
  · show V m c main_arg2 (((cfg0.win 1).blk t).view.emb (ix2 k (j 1))) = _
    refine congrArg (V m c main_arg2) (funext fun a => Fin.ext ?_)
    match a with
    | ⟨0, _⟩ => show win0_1.index t (0 : Fin 2) * 16 + 1 * k.val = k.val; omega
    | ⟨1, _⟩ => show win0_1.index t (1 : Fin 2) * 4096 + 1 * (j 1).val = win0_2.index t (1 : Fin 2) * 4096 + 1 * (j 1).val; omega

/-- A row-and-column position is in point `t`'s block iff each coordinate is in the block's range. -/
theorem mem_block (t : Fin cfg0.N) (i : S8192x4096.Idx) :
    i ∈ ((cfg0.win 2).blk t).view.set ↔ ∀ a : Fin 2, win0_2.index t a * S1024x4096.size a ≤ (i a).val ∧ (i a).val < win0_2.index t a * S1024x4096.size a + S1024x4096.size a := by
  show i ∈ ((View.whole main_v8).slice (win0_2.rect t)).set ↔ _
  rw [View.set_slice_whole, Rect.mem_set_unit]
  exact Iff.rfl

/-- Row `r` lies in the block of point `r / 1024`: the eight blocks tile the output. -/
theorem cover (i : S8192x4096.Idx) : ∃ t : Fin cfg0.N, (cfg0.win 2).flush t = true ∧ i ∈ ((cfg0.win 2).blk t).view.set := by
  have hi0 : (i 0).val < 8192 := (i 0).isLt
  have hi1 : (i 1).val < 4096 := (i 1).isLt
  have hN : grid0.N = 8 := N_0
  obtain ⟨t, ht⟩ : ∃ t : Fin cfg0.N, t.val = (i 0).val / 1024 := ⟨⟨(i 0).val / 1024, by show _ < grid0.N; omega⟩, rfl⟩
  obtain ⟨-, -, -, -, e4, e5⟩ := block_index t
  refine ⟨t, flush0_2 t, ?_⟩
  rw [mem_block]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 4096 ≤ (i 1).val ∧ (i 1).val < win0_2.index t (1 : Fin 2) * 4096 + 4096; omega

/-- After the run the output array is the product of the whole arrays. -/
theorem final (c : Dev nD) : (dats m 0 c).arrAt 2 cfg0.N = whole m c :=
  (dats m 0 c).arrAt_eq_of_cover 2 (whole m c) (fun t _ => flushed_eq m c t) cover

end Cert.KernelIdeal.Bridge

end
-- ==== Proof.LoraSpec.lean ====
/-
  The low-rank update read index by index over the extended reals.

  Token `(b, s)` of a `[4, 2048]` batch selects one row `g[b, s, ·]` of sixteen numbers; the update is
      out[b, s, d] = ∑ k < 16, g[b, s, k] · up[k, d].
  One program computes it on the rank-3 array directly. The other flattens the tokens into 8192 rows
  (token `(b, s)` is row `2048·b + s`, the row-major position), takes the plain `8192×16` by `16×4096` product, and
  unflattens the result. The two agree because flattening is a relabelling of the token axis that touches neither the
  contracted axis nor the output column: no algebra of the extended reals is used beyond reading both sums term by term.
-/
import Idealize.ShloMosaic.Lib.Pipeline.Value
import Idealize.ShloMosaic.Lib.ValueIdx
import proofs.«106962_j78520592105994_1_alg».proof.Proof.LibPlainDot

noncomputable section

namespace Cert.Lora

open Idealize.ShloMosaic Idealize.ShloMosaic.ValueIdx Cert.Lib.PlainDot

/-- The gathered rows, one per token. -/
abbrev STok : Shape := ⟨3, ![4, 2048, 16]⟩
/-- The same rows, tokens flattened. -/
abbrev SRows : Shape := ⟨2, ![8192, 16]⟩
/-- The up-projection. -/
abbrev SUp : Shape := ⟨2, ![16, 4096]⟩
/-- The product of the flattened rows. -/
abbrev SFlat : Shape := ⟨2, ![8192, 4096]⟩
/-- The update, one row of 4096 per token. -/
abbrev SOut : Shape := ⟨3, ![4, 2048, 4096]⟩

/-- The update: `out[b, s, d] = ∑ k, g[b, s, k] · up[k, d]`. -/
def lora (g : STok.Idx → EReal) (up : SUp.Idx → EReal) : SOut.Idx → EReal :=
  fun i => ∑ k : Fin 16, g (ix3 (i 0) (i 1) k) * up (ix2 k (i 2))

/-- Token `(b, s)` is row `2048·b + s` of the flattened array. -/
def row (b : Fin 4) (s : Fin 2048) : Fin 8192 := ⟨b.val * 2048 + s.val, by omega⟩

/-- The flattened rows at row `2048·b + s` are the token's row. -/
theorem flat_rows (g : STok.Idx → EReal) (h : STok.ShapeCasts SRows) (b : Fin 4) (s : Fin 2048) (k : Fin 16) :
    shapeCast SRows g h (ix2 (row b s) k) = g (ix3 b s k) := by
  refine shapeCast_apply g h _ _ ?_
  rw [Shape.rowMajor_val_three, Shape.rowMajor_val_two]
  rfl

/-- Unflattening reads token `(b, s)` at row `2048·b + s`. -/
theorem unflat (f : SFlat.Idx → EReal) (h : SFlat.ShapeCasts SOut) (i : SOut.Idx) :
    shapeCast SOut f h i = f (ix2 (row (i 0) (i 1)) (i 2)) := by
  refine shapeCast_apply f h _ _ ?_
  rw [Shape.rowMajor_val_three, Shape.rowMajor_val_two]
  rfl

/-- Flatten, multiply, unflatten is the update. -/
theorem flat_product (g : STok.Idx → EReal) (up : SUp.Idx → EReal) (h1 : STok.ShapeCasts SRows) (h2 : SFlat.ShapeCasts SOut) :
    shapeCast SOut (mm (M := 8192) (K := 16) (N := 4096) (shapeCast SRows g h1) up) h2 = lora g up := by
  funext i
  rw [unflat]
  exact Finset.sum_congr rfl fun k _ => congrArg (fun z => z * up (ix2 k (i 2))) (flat_rows g h1 (i 0) (i 1) k)

end Cert.Lora

end
-- ==== Proof.KernelRun.lean ====
/-
  The kernel program's result as one function of its arguments.

  Before the region the host wraps a negative token id once by the vocabulary size, gathers one row of the
  down-projection per token and flattens the `[4, 2048, 16]` rows to `[8192, 16]`; the region leaves the product of
  those rows with the up-projection; after the region the host unflattens `[8192, 4096]` to `[4, 2048, 4096]`.
  Flatten, multiply, unflatten is the low-rank update of the gathered rows.
-/
import proofs.«106962_j78520592105994_1_alg».proof.Proof.Blocks
import proofs.«106962_j78520592105994_1_alg».proof.Proof.LoraSpec
import Idealize.ShloMosaic.Lib.StableHlo.Run

set_option maxRecDepth 16384

noncomputable section

namespace Cert.KernelIdeal.Bridge

open Cert.KernelIdeal Cert.KernelIdeal.Gen Idealize.ShloMosaic Idealize.ShloMosaic.TcCoe Idealize.ShloMosaic.ValueIdx
open Idealize.SL.Sem Cert.Lib.PlainDot Idealize.ShloMosaic.StableHlo
open Idealize.ShloMosaic.Pipeline (Dat Cfg Window)

variable (m : (ℓ : Loc nD τ sig) → Buf (Elt Ideal) ℓ) (ρ : Dev nD → PrngReg)

/-- The rows the host gathers: a negative id is wrapped once by 32000, then each token takes its row of the table. -/
def gathered (ids : IVec S4x2048 32) (down : FVec Ideal S32000x16 .f32) : FVec Ideal S4x2048x16 .f32 :=
  Host.gather gather_S32000x16_S4x2048x1_S4x2048x16_2_0_n_n_0_2_116 down
    (broadcastInDim S4x2048x1 ![0, 1] bcast_S4x2048_S4x2048x1_0_1
      (select (cmpi .slt ids (broadcastInDim S4x2048 ![] bcast_S_S4x2048 (constantI S_ 32 0#32)))
        (addi ids (broadcastInDim S4x2048 ![] bcast_S_S4x2048 (constantI S_ 32 32000#32))) ids))

/-- The left operand the region finds is the gathered rows, flattened. -/
theorem rows_eq (c : Dev nD) : (V m c main_v7 : S8192x16.Idx → EReal)
    = shapeCast S8192x16 (gathered (m ((c : Thread nD τ).loc main_arg0)) (m ((c : Thread nD τ).loc main_arg1))) shapeCasts_S4x2048x16_S8192x16 := by
  show StableHlo.after hostOps0 (fun b => m (c, b)) (Proc.devRef .tc main_v7) = _
  after_results
  rfl

/-- The program's result buffer after the host's last line: the update of the gathered rows. -/
theorem result_eq (c : Dev nD) :
    (Pipeline.afterTail₀ cfgs (dats m) 0 (V0 m) [hostOps1] c main_v9 : S4x2048x4096.Idx → EReal)
      = Cert.Lora.lora (gathered (m ((c : Thread nD τ).loc main_arg0)) (m ((c : Thread nD τ).loc main_arg1))) (m ((c : Thread nD τ).loc main_arg2)) := by
  unfold Pipeline.afterTail₀
  show StableHlo.after hostOps1 _ (Proc.devRef .tc main_v9) = _
  after_results
  have hw : (Pipeline.withArrays (cfgs 0).spec c (V0 m c) (fun w => (dats m 0 c).arrAt w (cfgs 0).N) (Proc.devRef .tc main_v8) : S8192x4096.Idx → EReal)
      = whole m c := (Pipeline.withArrays_arr spec0 launch0.win.arr_inj c _ _ 2).trans (final m c)
  show shapeCast S4x2048x4096 (Pipeline.withArrays (cfgs 0).spec c (V0 m c) (fun w => (dats m 0 c).arrAt w (cfgs 0).N) (Proc.devRef .tc main_v8) : S8192x4096.Idx → EReal)
      shapeCasts_S8192x4096_S4x2048x4096 = _
  rw [hw]
  unfold whole
  rw [rows_eq, V_main_arg2]
  exact Cert.Lora.flat_product _ _ _ _

/-- The kernel program's run: it ends with the result buffer at the update of the gathered rows and its arguments
    unchanged. -/
theorem run : θ_run defs (onTc (τ := τ) (main (F := Ideal))) ⟨m, fun _ => 0, ρ⟩ (fun r => ∀ c : Dev nD,
      r.2.mem ((c.tc : Thread nD τ).loc main_v9)
        = Cert.Lora.lora (gathered (m ((c : Thread nD τ).loc main_arg0)) (m ((c : Thread nD τ).loc main_arg1))) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_v9 (Pipeline.mem_restRefs_of main_v9 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c)))⟩) (run_main m ρ)

end Cert.KernelIdeal.Bridge

end
-- ==== Proof.RefRun.lean ====
/-
  The reference program's result as the same function.

  The reference contracts the rank axis of the gathered `[4, 2048, 16]` rows with the up-projection directly:
  its `[b, s, d]` entry is `∑ k, g[b, s, k] · up[k, d]`, which is the update by definition once the contraction's two
  index functions are read as `(b, s, k)` and `(k, d)`.
-/
import proofs.«106962_j78520592105994_1_alg».proof.Proof.Gen.ReferenceIdeal.Read
import proofs.«106962_j78520592105994_1_alg».proof.Proof.LoraSpec

noncomputable section

namespace Cert.ReferenceIdeal.Bridge

open Cert.ReferenceIdeal Cert.ReferenceIdeal.Gen Idealize.ShloMosaic Idealize.ShloMosaic.ValueIdx Cert.ReferenceIdeal.Read

/-- The reference's result term is the update of the rows it gathers. -/
theorem result_eq (x0 : IVec S4x2048 32) (x1 : FVec Ideal S32000x16 .f32) (x2 : FVec Ideal S16x4096 .f32) :
    val_main_v7 (F := Ideal) x0 x1 x2 = Cert.Lora.lora (val_main_v6 (F := Ideal) x0 x1) x2 := by
  funext i
  rw [val_main_v7_apply]
  unfold Cert.Lora.lora
  refine Finset.sum_congr rfl fun k _ => ?_
  have el : lidx_main_v7 i k = ix3 (i 0) (i 1) k :=
    funext fun a => Fin.ext (by match a with | ⟨0, _⟩ => rfl | ⟨1, _⟩ => rfl | ⟨2, _⟩ => rfl)
  have er : ridx_main_v7 i k = ix2 k (i 2) :=
    funext fun a => Fin.ext (by match a with | ⟨0, _⟩ => rfl | ⟨1, _⟩ => rfl)
  rw [el, er]
  rfl

end Cert.ReferenceIdeal.Bridge

end
-- ==== Proof.lean ====
/-
  The certificate of a low-rank embedding update.

  Both programs take token ids `[4, 2048]`, a down-projection table `[32000, 16]` and an up-projection `[16, 4096]`.
  Both wrap a negative id once by the vocabulary size and gather one row of sixteen numbers per token: the same host
  term `g` on either side, never opened here. The reference then contracts the rank axis directly,
      out[b, s, d] = ∑ k < 16, g[b, s, k] · up[k, d].
  The kernel program flattens the tokens to 8192 rows, and on a grid of eight points multiplies each block of 1024 rows
  by the whole up-projection into a zero accumulator (its casts to a narrower float format are the identity on exact
  values), then unflattens the `[8192, 4096]` result. A row of a plain product reads only the same row of the left
  operand, so each point writes its block of the whole product and the eight blocks tile it; flattening is the
  row-major relabelling `(b, s) ↦ 2048·b + s` of the token axis, which touches neither the contracted axis nor the
  column. So over the extended reals both results are the one function `Cert.Lora.lora g up`, sum for sum and term for
  term: no distributivity or cancellation is used, and the finiteness precondition is never opened.

  The three frames are the generated ones (the reference's is its generated run with the result dropped); the
  idealization rewrote nothing, so its conjunct is `True`.
-/
import proofs.«106962_j78520592105994_1_alg».proof.Defs
import proofs.«106962_j78520592105994_1_alg».proof.Proof.Gen.Kernel
import proofs.«106962_j78520592105994_1_alg».proof.Proof.Gen.Kernel.Skeleton
import proofs.«106962_j78520592105994_1_alg».proof.Proof.Gen.Kernel.Launch
import proofs.«106962_j78520592105994_1_alg».proof.Proof.Gen.Kernel.Points
import proofs.«106962_j78520592105994_1_alg».proof.Proof.Gen.Kernel.Frame
import proofs.«106962_j78520592105994_1_alg».proof.Proof.Gen.KernelIdeal
import proofs.«106962_j78520592105994_1_alg».proof.Proof.Gen.KernelIdeal.Skeleton
import proofs.«106962_j78520592105994_1_alg».proof.Proof.Gen.KernelIdeal.Launch
import proofs.«106962_j78520592105994_1_alg».proof.Proof.Gen.KernelIdeal.Points
import proofs.«106962_j78520592105994_1_alg».proof.Proof.Gen.KernelIdeal.Frame
import proofs.«106962_j78520592105994_1_alg».proof.Proof.Gen.ReferenceIdeal
import proofs.«106962_j78520592105994_1_alg».proof.Proof.Gen.ReferenceIdeal.Run
import proofs.«106962_j78520592105994_1_alg».proof.Proof.Gen.ReferenceIdeal.Read
import proofs.«106962_j78520592105994_1_alg».proof.Proof.Gen.Pre_finite_inputs
import proofs.«106962_j78520592105994_1_alg».proof.Proof.KernelRun
import proofs.«106962_j78520592105994_1_alg».proof.Proof.RefRun
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does the kernel program read over the extended reals. -/
theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the update of the gathered rows: the kernel
    program by its run read back through the blocks, the reference by its contraction read index by index; the rows
    gathered are the same host term of the same arguments. -/
theorem algebraic : Cert.algebraic_KernelIdeal_ReferenceIdeal := by
  intro m ρ m' ρ' _ hagree
  refine ⟨_, Cert.KernelIdeal.Bridge.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v7_eq _ _ _).trans (Cert.ReferenceIdeal.Bridge.result_eq _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
